-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x1x2048 : Shape := ⟨4, ![2, 1, 1, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x1x1x2048 : S_.BroadcastsInDim S2x1x1x2048 (![] : Fin 0 → Fin S2x1x1x2048.rank)
  reducesTo_S2x1x1x2048_S_d0_1_2_3 : S2x1x1x2048.ReducesTo [0, 1, 2, 3] S_

variable [Facts]

def fn_part1 {F : FTy → Type} [FloatOps F] (main_v13 : IVec S_ 1) (main_v16 : IVec S2x1x1x2048 1) : IVec S_ 1 :=
  let main_c_5 : IVec S_ 1 := constantI S_ 1 1#1
  let main_v17 : IVec S_ 1 := (fun x v => Host.reduce IntOp.andi x v reducesTo_S2x1x1x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x1x1x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x1x1x2048 .f32 := Host.absf main_arg3
  let main_cst_4 : FVec F S_ .f32 := constant S_ .f32 0x7F800000#32
  let main_v15 : FVec F S2x1x1x2048 .f32 := broadcastInDim S2x1x1x2048 ![] bcast_S_S2x1x1x2048 main_cst_4
  let main_v16 : IVec S2x1x1x2048 1 := cmpf .olt main_v14 main_v15
  fn_part1 (F := F) main_v13 main_v16
-- ==== Kernel.lean ====
abbrev S2x16x2048x64 : Shape := ⟨4, ![2, 16, 2048, 64]⟩
abbrev S2x1x1x2048 : Shape := ⟨4, ![2, 1, 1, 2048]⟩
abbrev S_ : Shape := ⟨0, ![]⟩
abbrev S1x1x512x64 : Shape := ⟨4, ![1, 1, 512, 64]⟩
abbrev S1x1x2048x64 : Shape := ⟨4, ![1, 1, 2048, 64]⟩
abbrev S1x1x1x2048 : Shape := ⟨4, ![1, 1, 1, 2048]⟩
abbrev S512x64 : Shape := ⟨2, ![512, 64]⟩
abbrev S2048x64 : Shape := ⟨2, ![2048, 64]⟩
abbrev S2048 : Shape := ⟨1, ![2048]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x1x2048, .f32⟩
  | .hbm, ⟨4, _⟩ => ⟨S_, .f32⟩
  | .hbm, ⟨5, _⟩ => ⟨S2x16x2048x64, .f32⟩
  | .hbm, ⟨6, _⟩ => ⟨S2x16x2048x64, .f32⟩
  | .hbm, ⟨7, _⟩ => ⟨S2x16x2048x64, .bf16⟩
  | .hbm, ⟨8, _⟩ => ⟨S2x16x2048x64, .bf16⟩
  | .hbm, ⟨9, _⟩ => ⟨S2x16x2048x64, .bf16⟩
  | .hbm, ⟨10, _⟩ => ⟨S2x16x2048x64, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x1x2048, .f32⟩
  | .local _ .vmem, ⟨7, _⟩ => ⟨S1x1x1x2048, .f32⟩
  | .local _ .vmem, ⟨8, _⟩ => ⟨S1x1x512x64, .f32⟩
  | .local _ .vmem, ⟨9, _⟩ => ⟨S1x1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  bcast_S_S2x16x2048x64 : S_.BroadcastsInDim S2x16x2048x64 (![] : Fin 0 → Fin S2x16x2048x64.rank)
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S2048 : S1x1x1x2048.ShapeCasts S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .bf16 = 32 ∨ (Rect.block (s := S2x16x2048x64) S1x1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .bf16 = 32 ∨ (Rect.block (s := S2x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .bf16 = 32 ∨ (Rect.block (s := S2x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x2048.size a ≤ S2x1x1x2048.size a
  hwx0_3 : ∀ i : grid0.Coords, EltTy.bits .f32 = 32 ∨ (Rect.block (s := S2x1x1x2048) S1x1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v2) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x1x2048 : Shape := ⟨4, ![2, 1, 1, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x1x2048, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x1x1x2048, .f32⟩
  | .hbm, ⟨11, _⟩ => ⟨S2x1x1x2048, .f32⟩
  | .hbm, ⟨12, _⟩ => ⟨S_, .f32⟩
  | .hbm, ⟨13, _⟩ => ⟨S2x1x1x2048, .f32⟩
  | .hbm, ⟨14, _⟩ => ⟨S2x1x1x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x1x2048 : S_.BroadcastsInDim S2x1x1x2048 (![] : Fin 0 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  Scaled dot-product attention with an additive padding mask, on the extended reals, as ONE function of the
  four argument arrays: keys K, queries Q, values V (each [2, 16, 2048, 64]) and the mask M ([2, 1, 1, 2048]).

  For batch b, head h and query row i the score against key row j is the inner product of Q[b,h,i,:] with
  K[b,h,j,:], scaled by 1/8 (= 1/sqrt 64), plus the bias (1 - M[b,0,0,j]) * lowest, lowest the most negative
  finite single-precision number. The output entry (b,h,i,d) is the softmax of the score row (shifted by the
  row's maximum) weighted against column d of V[b,h,:,:].

  The scale may sit on the queries (each Q entry times 1/8 before the inner product) or on the inner product
  (divided by sqrt 64). The two agree when every entry of Q and K is a real number: the common factor moves
  across the finite sum over the 64 coordinates, which needs distributivity and so finiteness.
-/
import Idealize.ShloMosaic.PureOps.Ideal
import Idealize.ShloMosaic.Lib.ValueIdx

noncomputable section

open scoped BigOperators

namespace Cert.Attention

open Idealize.ShloMosaic Idealize.ShloMosaic.ValueIdx

/-- The shape of K, Q, V and of the result. -/
abbrev SQ : Shape := ⟨4, ![2, 16, 2048, 64]⟩
/-- The shape of the mask. -/
abbrev SM : Shape := ⟨4, ![2, 1, 1, 2048]⟩

/-- The value a row maximum starts from (the word of minus infinity; never evaluated). -/
def start : EReal := Ideal.ofBits .f32 0xFF800000#32

/-- The maximum of a row of scores. -/
def rowMax {n : ℕ} (s : Fin n → EReal) : EReal := (Finset.univ : Finset (Fin n)).fold max start s

/-- Softmax of the score row `s` (shifted by its maximum), weighted against the values `v`. -/
def attend {n : ℕ} (s v : Fin n → EReal) : EReal :=
  ∑ j : Fin n, Ideal.div (Ideal.exp (s j - rowMax s)) (∑ j' : Fin n, Ideal.exp (s j' - rowMax s)) * v j

/-- The additive mask bias of batch b at key position j. -/
def bias (M : SM.Idx → EReal) (b : Fin 2) (j : Fin 2048) : EReal :=
  (Ideal.ofBits .f32 0x3F800000#32 - M (ix4 b (0 : Fin 1) (0 : Fin 1) j)) * Ideal.ofBits .f32 0xFF7FFFFF#32

/-- The score with the scale 1/8 on each query entry. -/
def scoreScaled (K Q : SQ.Idx → EReal) (M : SM.Idx → EReal) (b : Fin 2) (h : Fin 16) (i j : Fin 2048) : EReal :=
  (∑ d : Fin 64, (Q (ix4 b h i d) * Ideal.ofBits .f32 0x3E000000#32) * K (ix4 b h j d)) + bias M b j

/-- The score with the inner product divided by sqrt 64. -/
def scoreDivided (K Q : SQ.Idx → EReal) (M : SM.Idx → EReal) (b : Fin 2) (h : Fin 16) (i j : Fin 2048) : EReal :=
  Ideal.div (∑ d : Fin 64, Q (ix4 b h i d) * K (ix4 b h j d)) (Ideal.sqrt (Ideal.ofBits .f32 0x42800000#32)) + bias M b j

/-- The output entry (b, h, i, d) for a given score function. -/
def out (score : Fin 2 → Fin 16 → Fin 2048 → Fin 2048 → EReal) (V : SQ.Idx → EReal)
    (b : Fin 2) (h : Fin 16) (i : Fin 2048) (d : Fin 64) : EReal :=
  attend (fun j => score b h i j) (fun j => V (ix4 b h j d))

/-- Attention as one function of the argument arrays, index by index (the scale on the queries). -/
def G (K Q V : SQ.Idx → EReal) (M : SM.Idx → EReal) : SQ.Idx → EReal := fun x =>
  out (scoreScaled K Q M) V ⟨(x 0).val, (x 0).isLt⟩ ⟨(x 1).val, (x 1).isLt⟩ ⟨(x 2).val, (x 2).isLt⟩ ⟨(x 3).val, (x 3).isLt⟩

theorem G_ix4 (K Q V : SQ.Idx → EReal) (M : SM.Idx → EReal) (b : Fin 2) (h : Fin 16) (i : Fin 2048) (d : Fin 64) :
    G K Q V M (ix4 b h i d) = out (scoreScaled K Q M) V b h i d := rfl

/-! ## The two places of the scale agree on finite entries -/

/-- The word 0x3E000000 is the real 1/8. -/
theorem ofBits_eighth : Ideal.ofBits .f32 0x3E000000#32 = ((1 / 8 : ℝ) : EReal) := by
  simp [Ideal.ofBits, Ideal.ieee, -EReal.coe_mul]; norm_num

/-- The word 0x42800000 is the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]
    exact Real.sqrt_sq (by norm_num)
  rw [h]

/-- A finite sum of real numbers, taken in the extended reals, is the real sum. -/
theorem coe_sum {ι : Type} (s : Finset ι) (f : ι → ℝ) : (∑ a ∈ s, ((f a : ℝ) : EReal)) = ((∑ a ∈ s, f a : ℝ) : EReal) := by
  classical
  induction s using Finset.induction_on with
  | empty => simp
  | insert a s ha ih => rw [Finset.sum_insert ha, Finset.sum_insert ha, ih, EReal.coe_add]

/-- With real entries in Q and K the two scores are the same extended real. -/
theorem scoreDivided_eq_scoreScaled (K Q : SQ.Idx → EReal) (M : SM.Idx → EReal)
    (hK : ∀ x, ∃ r : ℝ, K x = (r : EReal)) (hQ : ∀ x, ∃ r : ℝ, Q x = (r : EReal))
    (b : Fin 2) (h : Fin 16) (i j : Fin 2048) :
    scoreDivided K Q M b h i j = scoreScaled K Q M b h i j := by
  choose k hk using hK
  choose q hq using hQ
  unfold scoreDivided scoreScaled
  congr 1
  rw [ofBits_64, sqrt_64, Ideal.div_coe (by norm_num : (8 : ℝ) ≠ 0), ofBits_eighth]
  simp only [hk, hq, ← EReal.coe_mul]
  rw [coe_sum, coe_sum, ← EReal.coe_mul]
  congr 1
  rw [Finset.sum_mul]
  refine Finset.sum_congr rfl fun d _ => ?_
  ring

/-- Attention with the inner product divided by sqrt 64, index by index. -/
def Gd (K Q V : SQ.Idx → EReal) (M : SM.Idx → EReal) : SQ.Idx → EReal := fun x =>
  out (scoreDivided K Q M) V ⟨(x 0).val, (x 0).isLt⟩ ⟨(x 1).val, (x 1).isLt⟩ ⟨(x 2).val, (x 2).isLt⟩ ⟨(x 3).val, (x 3).isLt⟩

/-- With real entries in Q and K the two forms of attention are one function. -/
theorem Gd_eq_G (K Q V : SQ.Idx → EReal) (M : SM.Idx → EReal)
    (hK : ∀ x, ∃ r : ℝ, K x = (r : EReal)) (hQ : ∀ x, ∃ r : ℝ, Q x = (r : EReal)) :
    Gd K Q V M = G K Q V M := by
  have hs : scoreDivided K Q M = scoreScaled K Q M :=
    funext fun b => funext fun h => funext fun i => funext fun j => scoreDivided_eq_scoreScaled K Q M hK hQ b h i j
  unfold Gd G
  rw [hs]

end Cert.Attention

end
-- ==== Proof.LibLeadingUnits.lean ====
/-
  Shape casts that drop or add LEADING UNIT AXES of a block, read at an index: a [1, 1, a, b] block viewed as the
  matrix [a, b] and back, and a [1, 1, 1, a] block viewed as the vector [a]. In each case the two indices sit at the
  same row-major position, because a coordinate 0 on an axis of extent 1 contributes nothing to the position.
  General in the extents and in the element type.
-/
import Idealize.ShloMosaic.Lib.Pipeline.Value
import Idealize.ShloMosaic.Lib.ValueIdx

noncomputable section

namespace Cert.LibLeadingUnits

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, w, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-- A [1, 1, 1, a] block cast to the vector [a] reads, at i, the block at (0, 0, 0, i). -/
theorem shapeCast_111a_a_apply {a : ℕ} (x : (⟨4, ![1, 1, 1, a]⟩ : Shape).Idx → α)
    (h : (⟨4, ![1, 1, 1, a]⟩ : Shape).ShapeCasts ⟨1, ![a]⟩) (i : Fin a) :
    shapeCast ⟨1, ![a]⟩ x h (ix1 i) = x (ix4 (0 : Fin 1) (0 : Fin 1) (0 : Fin 1) i) :=
  shapeCast_apply x h _ _ (by
    rw [Shape.rowMajor_val_four, Shape.rowMajor_val_one]
    show ((0 * 1 + 0) * 1 + 0) * a + i.val = i.val
    simp only [Nat.zero_mul, Nat.zero_add])

end Cert.LibLeadingUnits

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.KernelPayload.lean ====
/-
  What the kernel body stores for one block, read at an entry, on the extended reals.

  The body holds one block of queries x0 ([1,1,512,64], already scaled), all keys x1 and all values x2 of one
  (batch, head) ([1,1,2048,64] each) and the mask row x3 ([1,1,1,2048]). It forms the 512 x 2048 score block —
  row p against key row j: the inner product of the two rows over the 64 coordinates, plus the mask bias of
  column j — then, row by row, the softmax of the scores shifted by the row maximum, and multiplies the weights
  into the values. Entry (p, d) of the stored block is therefore the row's softmax weighted against column d of
  the values: the function `attend` of the specification.
-/
import proofs.«150226_j32684701122973_2_alg».proof.Proof.Gen.KernelIdeal.Skeleton
import proofs.«150226_j32684701122973_2_alg».proof.Proof.Attention
import proofs.«150226_j32684701122973_2_alg».proof.Proof.LibLeadingUnits
import proofs.«150226_j32684701122973_2_alg».proof.Proof.LibKeepdims
import proofs.«150226_j32684701122973_2_alg».proof.Proof.LibBiasRow
import proofs.«150226_j32684701122973_2_alg».proof.Proof.LibRowReduce
import proofs.«150226_j32684701122973_2_alg».proof.Proof.LibRowRowDot
import proofs.«150226_j32684701122973_2_alg».proof.Proof.LibMatmulRows
import Idealize.ShloMosaic.PureOps.Ideal.Laws
import Idealize.ShloMosaic.Lib.ValueIdx

noncomputable section

open scoped BigOperators

namespace Cert.KernelPayload

open Cert.KernelIdeal Cert.KernelIdeal.Gen Idealize.ShloMosaic Idealize.ShloMosaic.ValueIdx

/-- The score block: queries against keys, plus the mask bias spread over the rows. -/
def scores (x0 : Vec Ideal S1x1x512x64 .bf16) (x1 : Vec Ideal S1x1x2048x64 .bf16) (x3 : Vec Ideal S1x1x1x2048 .f32) :
    FVec Ideal S512x2048 .f32 :=
  addf (matmul dot_S512x64_S2048x64_S512x2048_1_1_0_0_n_n none
      (shapeCast S512x64 x0 shapeCasts_S1x1x512x64_S512x64 : FVec Ideal S512x64 .bf16)
      (shapeCast S2048x64 x1 shapeCasts_S1x1x2048x64_S2048x64 : FVec Ideal S2048x64 .bf16) (constant S512x2048 .f32 0x00000000#32))
    (broadcastTo S512x2048 (shapeCast S1x2048 (mulf (subf (broadcast S2048 (Scalar.ofBits .f32 0x3F800000#32))
      (shapeCast S2048 x3 shapeCasts_S1x1x1x2048_S2048 : FVec Ideal S2048 .f32)) (broadcast S2048 (Scalar.ofBits .f32 0xFF7FFFFF#32)))
      shapeCasts_S2048_S1x2048) broadcasts_S1x2048_S512x2048)

/-- The exponentials of a score block shifted, row by row, by the row's maximum. -/
def shifted (s : FVec Ideal S512x2048 .f32) : FVec Ideal S512x2048 .f32 :=
  exp (subf s (broadcastTo S512x2048 (shapeCast S512x1 (multiReduction .maximumf [1] S512 s 0xFF800000#32
    reduces_S512x2048_S512 (.inl rfl) rfl) shapeCasts_S512_S512x1) broadcasts_S512x1_S512x2048))

/-- The softmax weights of a score block: the shifted exponentials over their row sums. -/
def weights (s : FVec Ideal S512x2048 .f32) : FVec Ideal S512x2048 .f32 :=
  divf (shifted s) (broadcastTo S512x2048 (shapeCast S512x1 (multiReduction .add [1] S512 (shifted s) 0x00000000#32
    reduces_S512x2048_S512 (.inl rfl) rfl) shapeCasts_S512_S512x1) broadcasts_S512x1_S512x2048)

/-- The stored block is the weights of the scores multiplied into the values, viewed as a [1,1,512,64] block. -/
theorem pay_eq (x0 : Vec Ideal S1x1x512x64 .bf16) (x1 x2 : Vec Ideal S1x1x2048x64 .bf16) (x3 : Vec Ideal S1x1x1x2048 .f32) :
    k0_pay1 (F := Ideal) x0 x1 x2 x3
      = shapeCast S1x1x512x64 (matmul dot_S512x2048_S2048x64_S512x64_1_0_0_1_n_n none
          (truncf .bf16 (weights (scores x0 x1 x3)) bitsLt_bf16_f32)
          (shapeCast S2048x64 x2 shapeCasts_S1x1x2048x64_S2048x64 : FVec Ideal S2048x64 .bf16) (constant S512x64 .f32 0x00000000#32))
          shapeCasts_S512x64_S1x1x512x64 := rfl

/-- Entry (p, j) of the score block. -/
theorem scores_apply (x0 : Vec Ideal S1x1x512x64 .bf16) (x1 : Vec Ideal S1x1x2048x64 .bf16) (x3 : Vec Ideal S1x1x1x2048 .f32)
    (p : Fin 512) (j : Fin 2048) :
    scores x0 x1 x3 (ix2 p j)
      = (∑ e : Fin 64, x0 (ix4 (0 : Fin 1) (0 : Fin 1) p e) * x1 (ix4 (0 : Fin 1) (0 : Fin 1) j e))
        + (Ideal.ofBits .f32 0x3F800000#32 - x3 (ix4 (0 : Fin 1) (0 : Fin 1) (0 : Fin 1) j)) * Ideal.ofBits .f32 0xFF7FFFFF#32 := by
  unfold scores
  rw [addf_apply]
  refine congrArg₂ (· + ·) ?_ ?_
  · refine (Cert.LibRowRowDot.matmul_zero_rows_apply dot_S512x64_S2048x64_S512x2048_1_1_0_0_n_n rfl rfl rfl rfl rfl rfl none _ _ p j).trans ?_
    refine Finset.sum_congr rfl fun e _ => ?_
    rw [Cert.LibLeadingUnits.shapeCast_11ab_ab_apply, Cert.LibLeadingUnits.shapeCast_11ab_ab_apply]
  · refine (Cert.LibBiasRow.vec_spread_apply shapeCasts_S2048_S1x2048 broadcasts_S1x2048_S512x2048 _ p j).trans ?_
    show (Ideal.ofBits .f32 0x3F800000#32 - shapeCast S2048 x3 shapeCasts_S1x1x1x2048_S2048 (ix1 j)) * Ideal.ofBits .f32 0xFF7FFFFF#32 = _
    rw [Cert.LibLeadingUnits.shapeCast_111a_a_apply]

/-- Entry (p, j) of the shifted exponentials. -/
theorem shifted_apply (s : FVec Ideal S512x2048 .f32) (p : Fin 512) (j : Fin 2048) :
    shifted s (ix2 p j) = Ideal.exp (s (ix2 p j) - Cert.Attention.rowMax (fun o : Fin 2048 => s (ix2 p o))) := by
  have hm : multiReduction .maximumf [1] S512 s 0xFF800000#32 reduces_S512x2048_S512 (.inl rfl) rfl (ix1 p)
      = Cert.Attention.rowMax (fun o : Fin 2048 => s (ix2 p o)) :=
    Cert.LibRowReduce.multiReduction_max_row s 0xFF800000#32 reduces_S512x2048_S512 (.inl rfl) rfl p
  show Ideal.exp (s (ix2 p j) - broadcastTo S512x2048 (shapeCast S512x1 _ shapeCasts_S512_S512x1) broadcasts_S512x1_S512x2048 (ix2 p j)) = _
  rw [Cert.LibKeepdims.broadcastTo_a1_ab_apply, Cert.LibKeepdims.shapeCast_a_a1_apply, hm]

/-- Entry (p, j) of the weights: the shifted exponential over the row's sum of them. -/
theorem weights_apply (s : FVec Ideal S512x2048 .f32) (p : Fin 512) (j : Fin 2048) :
    weights s (ix2 p j)
      = Ideal.div (Ideal.exp (s (ix2 p j) - Cert.Attention.rowMax (fun o : Fin 2048 => s (ix2 p o))))
          (∑ o : Fin 2048, Ideal.exp (s (ix2 p o) - Cert.Attention.rowMax (fun o' : Fin 2048 => s (ix2 p o')))) := by
  have hs : multiReduction .add [1] S512 (shifted s) 0x00000000#32 reduces_S512x2048_S512 (.inl rfl) rfl (ix1 p)
      = ∑ o : Fin 2048, shifted s (ix2 p o) :=
    Cert.LibRowReduce.multiReduction_add_row (shifted s) 0x00000000#32 reduces_S512x2048_S512 (.inl rfl) rfl p
  show Ideal.div (shifted s (ix2 p j)) (broadcastTo S512x2048 (shapeCast S512x1 _ shapeCasts_S512_S512x1) broadcasts_S512x1_S512x2048 (ix2 p j)) = _
  rw [Cert.LibKeepdims.broadcastTo_a1_ab_apply, Cert.LibKeepdims.shapeCast_a_a1_apply, hs, shifted_apply]
  refine congrArg (Ideal.div _) (Finset.sum_congr rfl fun o _ => shifted_apply s p o)

/-- Entry (0, 0, p, d) of the stored block: the softmax of row p of the scores weighted against column d of the values. -/
theorem pay_apply (x0 : Vec Ideal S1x1x512x64 .bf16) (x1 x2 : Vec Ideal S1x1x2048x64 .bf16) (x3 : Vec Ideal S1x1x1x2048 .f32)
    (p : Fin 512) (d : Fin 64) :
    k0_pay1 (F := Ideal) x0 x1 x2 x3 (ix4 (0 : Fin 1) (0 : Fin 1) p d)
      = Cert.Attention.attend
          (fun j : Fin 2048 => (∑ e : Fin 64, x0 (ix4 (0 : Fin 1) (0 : Fin 1) p e) * x1 (ix4 (0 : Fin 1) (0 : Fin 1) j e))
            + (Ideal.ofBits .f32 0x3F800000#32 - x3 (ix4 (0 : Fin 1) (0 : Fin 1) (0 : Fin 1) j)) * Ideal.ofBits .f32 0xFF7FFFFF#32)
          (fun j : Fin 2048 => x2 (ix4 (0 : Fin 1) (0 : Fin 1) j d)) := by
  rw [pay_eq, Cert.LibLeadingUnits.shapeCast_ab_11ab_apply]
  refine (Cert.LibMatmulRows.matmul_rows_apply dot_S512x2048_S2048x64_S512x64_1_0_0_1_n_n rfl rfl
    (fun j q => by
      unfold DotDims.lhsIdx
      rw [dif_neg (show ¬(0 : Fin S512x2048.rank) ∈ dot_S512x2048_S2048x64_S512x64_1_0_0_1_n_n.lhsBatch by decide),
        dif_pos (show (0 : Fin S512x2048.rank) ∈ dot_S512x2048_S2048x64_S512x64_1_0_0_1_n_n.lhsNonContracting by decide)]
      rfl)
    (fun j q => dot_S512x2048_S2048x64_S512x64_1_0_0_1_n_n.lhsIdx_val_of_single rfl j q)
    (fun j q => dot_S512x2048_S2048x64_S512x64_1_0_0_1_n_n.rhsIdx_val_of_single rfl j q)
    (fun j q => by
      unfold DotDims.rhsIdx
      rw [dif_neg (show ¬(1 : Fin S2048x64.rank) ∈ dot_S512x2048_S2048x64_S512x64_1_0_0_1_n_n.rhsBatch by decide),
        dif_pos (show (1 : Fin S2048x64.rank) ∈ dot_S512x2048_S2048x64_S512x64_1_0_0_1_n_n.rhsNonContracting by decide)]
      rfl)
    none _ _ p d).trans ?_
  unfold Cert.Attention.attend
  refine Finset.sum_congr rfl fun k _ => ?_
  rw [Cert.LibLeadingUnits.shapeCast_11ab_ab_apply]
  show weights (scores x0 x1 x3) (ix2 p k) * _ = _
  rw [weights_apply]
  simp only [scores_apply]

end Cert.KernelPayload

end
-- ==== Proof.KernelArray.lean ====
/-
  From what each grid point writes back to the whole result array of the idealized kernel.

  The grid has 2 x 16 x 4 points; point t = (b, h, r) works on batch b = t / 64, head h = t / 4 mod 16 and query
  rows 512 r .. 512 r + 511, r = t mod 4. It reads the block of (scaled) queries at (b, h, r), all keys and all values
  of (b, h), and the mask row of batch b, and writes block (b, h, r) of the result. The arrays the region finds are
  the arguments themselves, except the queries, which the host multiplied entry by entry by 1/8 beforehand (the
  changes of float format are the identity on the extended reals).

  So what point t writes back is block t of the attention function of the four arguments; the 128 blocks tile the
  result array (row i of (b, h) lies in the block of point 64 b + 4 h + i / 512), hence the array ends holding
  attention of the arguments, index by index.
-/
import proofs.«150226_j32684701122973_2_alg».proof.Proof.Gen.KernelIdeal.Value
import proofs.«150226_j32684701122973_2_alg».proof.Proof.KernelPayload
import proofs.«150226_j32684701122973_2_alg».proof.Proof.Attention
import Idealize.ShloMosaic.Lib.Pipeline.Value
import Idealize.ShloMosaic.Lib.StableHlo.Run
import Idealize.ShloMosaic.Lib.ValueIdx

noncomputable section

open scoped BigOperators

namespace Cert.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The keys, queries, values and mask as launched, as arrays of extended reals. -/
abbrev argK (c : Dev nD) : S2x16x2048x64.Idx → EReal := m ((c : Thread nD τ).loc main_arg0)
abbrev argQ (c : Dev nD) : S2x16x2048x64.Idx → EReal := m ((c : Thread nD τ).loc main_arg1)
abbrev argV (c : Dev nD) : S2x16x2048x64.Idx → EReal := m ((c : Thread nD τ).loc main_arg2)
abbrev argM (c : Dev nD) : S2x1x1x2048.Idx → EReal := m ((c : Thread nD τ).loc main_arg3)

/-- The result: attention of the four arguments. -/
abbrev result (c : Dev nD) : S2x16x2048x64.Idx → EReal :=
  Cert.Attention.G (argK m c) (argQ m c) (argV m c) (argM m c)

/-! ## The arrays the region finds -/

/-- The query array the region finds: each launched entry times the word of 1/8. -/
theorem V_queries (c : Dev nD) (x : S2x16x2048x64.Idx) :
    (V m c main_v2 : S2x16x2048x64.Idx → EReal) x = argQ m c x * Ideal.ofBits .f32 0x3E000000#32 := by
  have e : (V m c main_v2 : S2x16x2048x64.Idx → EReal)
      = truncf .bf16 (mulf (argQ m c) (broadcastInDim S2x16x2048x64 ![] bcast_S_S2x16x2048x64 (constant (F := Ideal) S_ .f32 0x3E000000#32))) bitsLt_bf16_f32 := by
    dsimp only [Gen.V, Gen.hostOps0]; after_results
  rw [e]
  show argQ m c x * broadcastInDim S2x16x2048x64 ![] bcast_S_S2x16x2048x64 (constant (F := Ideal) S_ .f32 0x3E000000#32) x = _
  rw [broadcastInDim_apply _ bcast_S_S2x16x2048x64 (constant (F := Ideal) S_ .f32 0x3E000000#32) x ix0 (fun a => a.elim0)]
  rfl

/-- The key array the region finds is the launched one. -/
theorem V_keys (c : Dev nD) : (V m c main_v3 : S2x16x2048x64.Idx → EReal) = argK m c := by
  have e : (V m c main_v3 : S2x16x2048x64.Idx → EReal)
      = (truncf .bf16 (argK m c : FVec Ideal S2x16x2048x64 .f32) bitsLt_bf16_f32 : FVec Ideal S2x16x2048x64 .bf16) := by
    dsimp only [Gen.V, Gen.hostOps0]; after_results
  rw [e]; rfl

/-- The value array the region finds is the launched one. -/
theorem V_values (c : Dev nD) : (V m c main_v4 : S2x16x2048x64.Idx → EReal) = argV m c := by
  have e : (V m c main_v4 : S2x16x2048x64.Idx → EReal)
      = (truncf .bf16 (argV m c : FVec Ideal S2x16x2048x64 .f32) bitsLt_bf16_f32 : FVec Ideal S2x16x2048x64 .bf16) := by
    dsimp only [Gen.V, Gen.hostOps0]; after_results
  rw [e]; rfl

/-! ## The grid points' coordinates and the index maps -/

theorem N_eq : cfg0.N = 128 := N_0

/-- Point t's batch, head and row-block coordinates. -/
def ptB (t : Fin cfg0.N) : Fin 2 := ⟨t.val / 64, by have := lt_of_lt_of_eq t.isLt N_eq; omega⟩
def ptH (t : Fin cfg0.N) : Fin 16 := ⟨t.val / 4 % 16, by omega⟩
/-- Row p of point t's block is row 512 (t mod 4) + p of the array. -/
def ptRow (t : Fin cfg0.N) (p : Fin 512) : Fin 2048 := ⟨t.val % 4 * 512 + p.val, by have := p.isLt; omega⟩

/-- The printed index maps, decided over the 128 points: every window's batch index is t / 64; the queries',
    keys', values' and result's head index is t / 4 mod 16; the queries' and the result's row-block index is t mod 4;
    every other block index is 0. -/
theorem idx_facts : ∀ t : Fin cfg0.N,
    (win0_0.index t (0 : Fin 4) = t.val / 64 ∧ win0_0.index t (1 : Fin 4) = t.val / 4 % 16
      ∧ win0_0.index t (2 : Fin 4) = t.val % 4 ∧ win0_0.index t (3 : Fin 4) = 0)
    ∧ (win0_1.index t (0 : Fin 4) = t.val / 64 ∧ win0_1.index t (1 : Fin 4) = t.val / 4 % 16
      ∧ win0_1.index t (2 : Fin 4) = 0 ∧ win0_1.index t (3 : Fin 4) = 0)
    ∧ (win0_2.index t (0 : Fin 4) = t.val / 64 ∧ win0_2.index t (1 : Fin 4) = t.val / 4 % 16
      ∧ win0_2.index t (2 : Fin 4) = 0 ∧ win0_2.index t (3 : Fin 4) = 0)
    ∧ (win0_3.index t (0 : Fin 4) = t.val / 64 ∧ win0_3.index t (1 : Fin 4) = 0
      ∧ win0_3.index t (2 : Fin 4) = 0 ∧ win0_3.index t (3 : Fin 4) = 0)
    ∧ (win0_4.index t (0 : Fin 4) = t.val / 64 ∧ win0_4.index t (1 : Fin 4) = t.val / 4 % 16
      ∧ win0_4.index t (2 : Fin 4) = t.val % 4 ∧ win0_4.index t (3 : Fin 4) = 0) :=
  (by decide +kernel : ∀ t : Fin grid0.N, _)

/-! ## The input blocks at a point, entry by entry -/

/-- Entry (p, e) of point t's query block: the launched query at (b, h, 512 r + p, e), times the word of 1/8. -/
theorem queries_blk (c : Dev nD) (t : Fin cfg0.N) (p : Fin 512) (e : Fin 64) :
    (iblk m c 0 t : Vec Ideal S1x1x512x64 .bf16) (ix4 (0 : Fin 1) (0 : Fin 1) p e)
      = argQ m c (ix4 (ptB t) (ptH t) (ptRow t p) e) * Ideal.ofBits .f32 0x3E000000#32 := by
  obtain ⟨⟨f0, f1, f2, f3⟩, -⟩ := idx_facts t
  unfold iblk
  rw [View.read_apply]
  show (V m c main_v2 : S2x16x2048x64.Idx → EReal) _ = _
  rw [V_queries]
  refine congrArg (fun z => argQ m c z * Ideal.ofBits .f32 0x3E000000#32) (funext fun a => Fin.ext ?_)
  match a with
  | ⟨0, _⟩ => show win0_0.index t (0 : Fin 4) * 1 + 1 * 0 = t.val / 64; omega
  | ⟨1, _⟩ => show win0_0.index t (1 : Fin 4) * 1 + 1 * 0 = t.val / 4 % 16; omega
  | ⟨2, _⟩ => show win0_0.index t (2 : Fin 4) * 512 + 1 * p.val = t.val % 4 * 512 + p.val; omega
  | ⟨3, _⟩ => show win0_0.index t (3 : Fin 4) * 64 + 1 * e.val = e.val; omega

/-- Entry (j, e) of point t's key block: the launched key at (b, h, j, e). -/
theorem keys_blk (c : Dev nD) (t : Fin cfg0.N) (j : Fin 2048) (e : Fin 64) :
    (iblk m c 1 t : Vec Ideal S1x1x2048x64 .bf16) (ix4 (0 : Fin 1) (0 : Fin 1) j e) = argK m c (ix4 (ptB t) (ptH t) j e) := by
  obtain ⟨-, ⟨f0, f1, f2, f3⟩, -⟩ := idx_facts t
  unfold iblk
  rw [View.read_apply]
  show (V m c main_v3 : S2x16x2048x64.Idx → EReal) _ = _
  rw [V_keys]
  refine congrArg (argK m c) (funext fun a => Fin.ext ?_)
  match a with
  | ⟨0, _⟩ => show win0_1.index t (0 : Fin 4) * 1 + 1 * 0 = t.val / 64; omega
  | ⟨1, _⟩ => show win0_1.index t (1 : Fin 4) * 1 + 1 * 0 = t.val / 4 % 16; omega
  | ⟨2, _⟩ => show win0_1.index t (2 : Fin 4) * 2048 + 1 * j.val = j.val; omega
  | ⟨3, _⟩ => show win0_1.index t (3 : Fin 4) * 64 + 1 * e.val = e.val; omega

/-- Entry (j, d) of point t's value block: the launched value at (b, h, j, d). -/
theorem values_blk (c : Dev nD) (t : Fin cfg0.N) (j : Fin 2048) (d : Fin 64) :
    (iblk m c 2 t : Vec Ideal S1x1x2048x64 .bf16) (ix4 (0 : Fin 1) (0 : Fin 1) j d) = argV m c (ix4 (ptB t) (ptH t) j d) := by
  obtain ⟨-, -, ⟨f0, f1, f2, f3⟩, -⟩ := idx_facts t
  unfold iblk
  rw [View.read_apply]
  show (V m c main_v4 : S2x16x2048x64.Idx → EReal) _ = _
  rw [V_values]
  refine congrArg (argV m c) (funext fun a => Fin.ext ?_)
  match a with
  | ⟨0, _⟩ => show win0_2.index t (0 : Fin 4) * 1 + 1 * 0 = t.val / 64; omega
  | ⟨1, _⟩ => show win0_2.index t (1 : Fin 4) * 1 + 1 * 0 = t.val / 4 % 16; omega
  | ⟨2, _⟩ => show win0_2.index t (2 : Fin 4) * 2048 + 1 * j.val = j.val; omega
  | ⟨3, _⟩ => show win0_2.index t (3 : Fin 4) * 64 + 1 * d.val = d.val; omega

/-- Entry j of point t's mask row: the launched mask at (b, 0, 0, j). -/
theorem mask_blk (c : Dev nD) (t : Fin cfg0.N) (j : Fin 2048) :
    (iblk m c 3 t : Vec Ideal S1x1x1x2048 .f32) (ix4 (0 : Fin 1) (0 : Fin 1) (0 : Fin 1) j)
      = argM m c (ix4 (ptB t) (0 : Fin 1) (0 : Fin 1) j) := by
  obtain ⟨-, -, -, ⟨f0, f1, f2, f3⟩, -⟩ := idx_facts t
  unfold iblk
  rw [View.read_apply]
  show (V m c main_arg3 : S2x1x1x2048.Idx → EReal) _ = _
  rw [V_main_arg3]
  refine congrArg (argM m c) (funext fun a => Fin.ext ?_)
  match a with
  | ⟨0, _⟩ => show win0_3.index t (0 : Fin 4) * 1 + 1 * 0 = t.val / 64; omega
  | ⟨1, _⟩ => show win0_3.index t (1 : Fin 4) * 1 + 1 * 0 = 0; omega
  | ⟨2, _⟩ => show win0_3.index t (2 : Fin 4) * 1 + 1 * 0 = 0; omega
  | ⟨3, _⟩ => show win0_3.index t (3 : Fin 4) * 2048 + 1 * j.val = j.val; omega

/-! ## What a point stores is its block of attention -/

/-- For blocks that hold, entry by entry, the scaled queries of rows `row p`, the keys, the values and the mask of
    batch B and head H, entry (p, d) of the stored block is attention at (B, H, row p, d). -/
theorem stored_entry (x0 : Vec Ideal S1x1x512x64 .bf16) (x1 x2 : Vec Ideal S1x1x2048x64 .bf16) (x3 : Vec Ideal S1x1x1x2048 .f32)
    (K Q W : Cert.Attention.SQ.Idx → EReal) (M : Cert.Attention.SM.Idx → EReal) (B : Fin 2) (H : Fin 16) (row : Fin 512 → Fin 2048)
    (h0 : ∀ p e, x0 (ix4 (0 : Fin 1) (0 : Fin 1) p e) = Q (ix4 B H (row p) e) * Ideal.ofBits .f32 0x3E000000#32)
    (h1 : ∀ j e, x1 (ix4 (0 : Fin 1) (0 : Fin 1) j e) = K (ix4 B H j e))
    (h2 : ∀ j d, x2 (ix4 (0 : Fin 1) (0 : Fin 1) j d) = W (ix4 B H j d))
    (h3 : ∀ j, x3 (ix4 (0 : Fin 1) (0 : Fin 1) (0 : Fin 1) j) = M (ix4 B (0 : Fin 1) (0 : Fin 1) j))
    (p : Fin 512) (d : Fin 64) :
    k0_pay1 (F := Ideal) x0 x1 x2 x3 (ix4 (0 : Fin 1) (0 : Fin 1) p d) = Cert.Attention.G K Q W M (ix4 B H (row p) d) := by
  rw [Cert.KernelPayload.pay_apply, Cert.Attention.G_ix4]
  unfold Cert.Attention.out Cert.Attention.scoreScaled Cert.Attention.bias
  simp only [h0, h1, h2, h3]

/-- Two functions on a [1, 1, 512, 64] block agree if they agree at every (0, 0, p, d). -/
theorem ext_block {f g : (⟨4, ![1, 1, 512, 64]⟩ : Shape).Idx → EReal}
    (h : ∀ (p : Fin 512) (d : Fin 64), f (ix4 (0 : Fin 1) (0 : Fin 1) p d) = g (ix4 (0 : Fin 1) (0 : Fin 1) p d)) : f = g := by
  funext y
  have h0 : (y 0).val < 1 := (y 0).isLt
  have h1 : (y 1).val < 1 := (y 1).isLt
  have hy : y = ix4 (0 : Fin 1) (0 : Fin 1) (⟨(y 2).val, (y 2).isLt⟩ : Fin 512) (⟨(y 3).val, (y 3).isLt⟩ : Fin 64) :=
    funext fun a => Fin.ext (by
      match a with
      | ⟨0, _⟩ => show (y 0).val = 0; omega
      | ⟨1, _⟩ => show (y 1).val = 0; omega
      | ⟨2, _⟩ => rfl
      | ⟨3, _⟩ => rfl)
  rw [hy]
  exact h _ _

theorem hz : (![0, 0, 0, 0] : Fin 4 → Nat) = fun _ => 0 := funext fun a => by fin_cases a <;> rfl

/-- WHAT POINT t WRITES BACK is block t of attention of the arguments. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S1x1x512x64) hz, View.ld_unit_zero (S := S1x1x2048x64) hz, View.ld_unit_zero (S := S1x1x1x2048) hz]
  refine ext_block fun p d => ?_
  obtain ⟨-, -, -, -, ⟨f0, f1, f2, f3⟩⟩ := idx_facts t
  show k0_pay1 (F := Ideal) (iblk m c 0 t) (iblk m c 1 t) (iblk m c 2 t) (iblk m c 3 t) (ix4 (0 : Fin 1) (0 : Fin 1) p d)
    = result m c (((cfg0.win 4).blk t).view.emb (ix4 (0 : Fin 1) (0 : Fin 1) p d))
  refine (stored_entry (iblk m c 0 t) (iblk m c 1 t) (iblk m c 2 t) (iblk m c 3 t) (argK m c) (argQ m c) (argV m c) (argM m c)
    (ptB t) (ptH t) (ptRow t) (queries_blk m c t) (keys_blk m c t) (values_blk m c t) (mask_blk m c t) p d).trans ?_
  refine congrArg (result m c) (funext fun a => Fin.ext ?_)
  match a with
  | ⟨0, _⟩ => show t.val / 64 = win0_4.index t (0 : Fin 4) * 1 + 1 * 0; omega
  | ⟨1, _⟩ => show t.val / 4 % 16 = win0_4.index t (1 : Fin 4) * 1 + 1 * 0; omega
  | ⟨2, _⟩ => show t.val % 4 * 512 + p.val = win0_4.index t (2 : Fin 4) * 512 + 1 * p.val; omega
  | ⟨3, _⟩ => show d.val = win0_4.index t (3 : Fin 4) * 64 + 1 * d.val; omega

/-! ## The blocks tile the array -/

/-- An index of the array is in point t's block iff each coordinate is in the block's range on its axis. -/
theorem mem_blk (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v5).slice (win0_4.rect t)).set ↔ _
  rw [View.set_slice_whole, Rect.mem_set_unit]
  exact Iff.rfl

/-- Every index of the result array lies in some point's block: entry (b, h, i, d) in that of point 64 b + 4 h + i / 512. -/
theorem cover (i : S2x16x2048x64.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  let t : Fin cfg0.N := ⟨(i 0).val * 64 + (i 1).val * 4 + (i 2).val / 512, by rw [N_eq]; omega⟩
  have ht : t.val = (i 0).val * 64 + (i 1).val * 4 + (i 2).val / 512 := rfl
  obtain ⟨-, -, -, -, ⟨f0, f1, f2, f3⟩⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE RESULT ARRAY after the run is attention of the arguments. -/
theorem final (c : Dev nD) : (dats m 0 c).arrAt 4 cfg0.N = result m c :=
  (dats m 0 c).arrAt_eq_of_cover 4 (result m c) (fun t _ => flushed_eq m c t) cover

/-- The idealized kernel's run: every weakly fair execution ends with the result array at attention of the arguments
    and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelArray

end
-- ==== Proof.RefAttention.lean ====
/-
  The reference program's result stage is attention, index by index.

  The reference computes, for keys K, queries Q, values V (each [2, 16, 2048, 64]) and the mask M ([2, 1, 1, 2048]):
  the scores S[b,h,i,j] = (sum over d of Q[b,h,i,d] * K[b,h,j,d]) / sqrt 64 + (1 - M[b,0,0,j]) * lowest; the row
  maximum m[b,h,i] = max(start, fold of max over j of S[b,h,i,j] from start), start the word of minus infinity; the
  exponentials E[b,h,i,j] = exp(S[b,h,i,j] - m[b,h,i]); the row sums Z[b,h,i] = 0 + sum over j of E[b,h,i,j]; the
  weights W = E / Z; and the result R[b,h,i,d] = sum over j of W[b,h,i,j] * V[b,h,j,d].

  Read at the extended reals, each stage at the index (b, h, i, j) (or (b, h, i), or (b, h, i, d)) is the
  corresponding piece of the attention function: the broadcasts read their operand at the coordinates they keep, the
  maximum-reduce over the last axis is a fold of `max` over that axis, a fold of `max` is at least its start value
  (so taking the larger of the start value and the fold changes nothing), and the zero word is the real 0. No float
  word other than the zero is evaluated.
-/
import proofs.«150226_j32684701122973_2_alg».proof.Proof.Gen.ReferenceIdeal.Read
import proofs.«150226_j32684701122973_2_alg».proof.Proof.Attention

noncomputable section

open scoped BigOperators

namespace Cert.RefAttention

open Cert.ReferenceIdeal Cert.ReferenceIdeal.Gen Cert.ReferenceIdeal.Read Cert.Attention
open Idealize.ShloMosaic Idealize.ShloMosaic.ValueIdx

/-- Keys, queries and values: arrays of extended reals over [2, 16, 2048, 64]. -/
abbrev TQ : Type := (⟨S2x16x2048x64, .f32⟩ : BufTy).Contents (Elt Ideal)
/-- The mask: an array of extended reals over [2, 1, 1, 2048]. -/
abbrev TM : Type := (⟨S2x1x1x2048, .f32⟩ : BufTy).Contents (Elt Ideal)

/-! ## The score stage -/

/-- The score array at (b, h, i, j): the inner product of query row i with key row j divided by sqrt 64, plus the
    mask bias of key position j. -/
theorem score_ix (K Q : TQ) (M : TM) (b : Fin 2) (h : Fin 16) (i j : Fin 2048) :
    val_main_v9 (F := Ideal) K Q M (ix4 b h i j) = scoreDivided K Q M b h i j := by
  have e1 : ∀ k : Fin 64, lidx_main_v0 (ix4 b h i j) k = ix4 b h i k := fun k =>
    funext fun a => Fin.ext (by match a with | ⟨0, _⟩ => rfl | ⟨1, _⟩ => rfl | ⟨2, _⟩ => rfl | ⟨3, _⟩ => rfl)
  have e2 : ∀ k : Fin 64, ridx_main_v0 (ix4 b h i j) k = ix4 b h j k := fun k =>
    funext fun a => Fin.ext (by match a with | ⟨0, _⟩ => rfl | ⟨1, _⟩ => rfl | ⟨2, _⟩ => rfl | ⟨3, _⟩ => rfl)
  have e3 : idx_main_v8 (ix4 b h i j) = ix4 b (0 : Fin 1) (0 : Fin 1) j :=
    funext fun a => Fin.ext (by match a with | ⟨0, _⟩ => rfl | ⟨1, _⟩ => rfl | ⟨2, _⟩ => rfl | ⟨3, _⟩ => rfl)
  rw [val_main_v9_apply, val_main_v3_apply, val_main_v0_apply, val_main_v2_apply, val_main_v1_apply, val_main_cst_apply,
    val_main_v8_apply, val_main_v7_apply, val_main_v5_apply, val_main_v4_apply, val_main_cst_0_apply, val_main_v6_apply,
    val_main_cst_1_apply]
  simp only [Ideal.addf_def, Ideal.hostDivf_def, Ideal.hostUnary_sqrt_def, Ideal.ofBits_def, Ideal.subf_def, Ideal.mulf_def,
    e1, e2, e3]
  rfl

/-! ## The row maximum -/

/-- Dropping the last axis of [2, 16, 2048, 2048] leaves [2, 16, 2048]. -/
theorem reduces_last : S2x16x2048x2048.Reduces [3] S2x16x2048 := by decide

/-- The index (b, h, i) with the coordinate o put back on the reduced last axis is (b, h, i, o). -/
theorem lift_last (hR : S2x16x2048x2048.Reduces [3] S2x16x2048) (b : Fin 2) (h : Fin 16) (i o : Fin 2048) :
    hR.lift (ix3 b h i) o = ix4 b h i o :=
  funext fun a => Fin.ext (by match a with | ⟨0, _⟩ => rfl | ⟨1, _⟩ => rfl | ⟨2, _⟩ => rfl | ⟨3, _⟩ => rfl)

/-- The maximum-reduce over the last axis at (b, h, i): the fold of `max` over the score row from the start value. -/
theorem reduceMax_ix (K Q : TQ) (M : TM) (b : Fin 2) (h : Fin 16) (i : Fin 2048) :
    val_main_v10 (F := Ideal) K Q M (ix3 b h i)
      = (Finset.univ : Finset (Fin 2048)).fold max start (fun j => scoreDivided K Q M b h i j) := by
  unfold val_main_v10
  refine (Host.reduce_eq_fold_single (FloatOps.maximumf (F := Ideal) (φ := .f32)) (val_main_v9 (F := Ideal) K Q M)
    (val_main_cst_2 (F := Ideal)) reducesTo_S2x16x2048x2048_S2x16x2048_d3 reduces_last h_S_ (ix3 b h i)).trans ?_
  exact congrArg (Finset.fold max start · Finset.univ) (funext fun o =>
    (congrArg (val_main_v9 (F := Ideal) K Q M) (lift_last reduces_last b h i o)).trans (score_ix K Q M b h i o))

/-- The row maximum the reference subtracts: the larger of the start value and the fold, which is the fold, because a
    fold of `max` is at least its start value. -/
theorem rowMax_ix (K Q : TQ) (M : TM) (b : Fin 2) (h : Fin 16) (i : Fin 2048) :
    val_main_v12 (F := Ideal) K Q M (ix3 b h i) = rowMax (fun j => scoreDivided K Q M b h i j) := by
  rw [val_main_v12_apply, val_main_v11_apply, val_main_cst_3_apply, reduceMax_ix]
  simp only [Ideal.maximumf_def, Ideal.ofBits_def]
  exact max_eq_right ((Finset.le_fold_max _).2 (Or.inl le_rfl))

/-! ## The softmax weights -/

/-- The shifted score at (b, h, i, j): the score minus its row's maximum. -/
theorem shifted_ix (K Q : TQ) (M : TM) (b : Fin 2) (h : Fin 16) (i j : Fin 2048) :
    val_main_v15 (F := Ideal) K Q M (ix4 b h i j)
      = scoreDivided K Q M b h i j - rowMax (fun j' => scoreDivided K Q M b h i j') := by
  have e : idx_main_v13 (idx_main_v14 (ix4 b h i j)) = ix3 b h i :=
    funext fun a => Fin.ext (by match a with | ⟨0, _⟩ => rfl | ⟨1, _⟩ => rfl | ⟨2, _⟩ => rfl)
  rw [val_main_v15_apply, val_main_v14_apply, val_main_v13_apply, e, score_ix, rowMax_ix]
  rfl

/-- The exponential of the shifted score at (b, h, i, j). -/
theorem expShifted_ix (K Q : TQ) (M : TM) (b : Fin 2) (h : Fin 16) (i j : Fin 2048) :
    val_main_v16 (F := Ideal) K Q M (ix4 b h i j)
      = Ideal.exp (scoreDivided K Q M b h i j - rowMax (fun j' => scoreDivided K Q M b h i j')) := by
  rw [val_main_v16_apply, shifted_ix]
  rfl

/-- The softmax denominator at (b, h, i): the add-reduce starts from the zero word, which is 0, so it is the sum of
    the row's exponentials. -/
theorem denom_ix (K Q : TQ) (M : TM) (b : Fin 2) (h : Fin 16) (i : Fin 2048) :
    val_main_v17 (F := Ideal) K Q M (ix3 b h i)
      = ∑ j : Fin 2048, Ideal.exp (scoreDivided K Q M b h i j - rowMax (fun j' => scoreDivided K Q M b h i j')) := by
  have e : ∀ k : Fin 2048, idx_main_v17 (ix3 b h i) k = ix4 b h i k := fun k =>
    funext fun a => Fin.ext (by match a with | ⟨0, _⟩ => rfl | ⟨1, _⟩ => rfl | ⟨2, _⟩ => rfl | ⟨3, _⟩ => rfl)
  rw [val_main_v17_apply, val_main_cst_4_apply, Ideal.ofBits_def, Ideal.ofBits_zero_f32, zero_add]
  simp only [e, expShifted_ix]

/-- The softmax weight at (b, h, i, j): the exponential of the shifted score over the row's sum of them. -/
theorem weight_ix (K Q : TQ) (M : TM) (b : Fin 2) (h : Fin 16) (i j : Fin 2048) :
    val_main_v20 (F := Ideal) K Q M (ix4 b h i j)
      = Ideal.div (Ideal.exp (scoreDivided K Q M b h i j - rowMax (fun j' => scoreDivided K Q M b h i j')))
          (∑ j' : Fin 2048, Ideal.exp (scoreDivided K Q M b h i j' - rowMax (fun j'' => scoreDivided K Q M b h i j''))) := by
  have e : idx_main_v18 (idx_main_v19 (ix4 b h i j)) = ix3 b h i :=
    funext fun a => Fin.ext (by match a with | ⟨0, _⟩ => rfl | ⟨1, _⟩ => rfl | ⟨2, _⟩ => rfl)
  rw [val_main_v20_apply, val_main_v19_apply, val_main_v18_apply, e, expShifted_ix, denom_ix]
  rfl

/-! ## The result -/

/-- The result at (b, h, i, d): the softmax weights of row i against column d of the values. -/
theorem result_ix (K Q V : TQ) (M : TM) (b : Fin 2) (h : Fin 16) (i : Fin 2048) (d : Fin 64) :
    val_main_v21 (F := Ideal) K Q V M (ix4 b h i d) = out (scoreDivided K Q M) V b h i d := by
  have e1 : ∀ k : Fin 2048, lidx_main_v21 (ix4 b h i d) k = ix4 b h i k := fun k =>
    funext fun a => Fin.ext (by match a with | ⟨0, _⟩ => rfl | ⟨1, _⟩ => rfl | ⟨2, _⟩ => rfl | ⟨3, _⟩ => rfl)
  have e2 : ∀ k : Fin 2048, ridx_main_v21 (ix4 b h i d) k = ix4 b h k d := fun k =>
    funext fun a => Fin.ext (by match a with | ⟨0, _⟩ => rfl | ⟨1, _⟩ => rfl | ⟨2, _⟩ => rfl | ⟨3, _⟩ => rfl)
  rw [val_main_v21_apply]
  simp only [e1, e2, weight_ix]
  rfl

/-- The reference program's result stage, at the extended reals, is attention with the inner product divided by
    sqrt 64, as one function of the four argument arrays. -/
theorem ref_eq (K Q V : (⟨Cert.ReferenceIdeal.S2x16x2048x64, .f32⟩ : BufTy).Contents (Elt Ideal))
    (M : (⟨Cert.ReferenceIdeal.S2x1x1x2048, .f32⟩ : BufTy).Contents (Elt Ideal)) :
    Cert.ReferenceIdeal.Read.val_main_v21 (F := Ideal) K Q V M = Cert.Attention.Gd K Q V M := by
  funext x
  have hG : Gd K Q V M x = out (scoreDivided K Q M) V (x 0) (x 1) (x 2) (x 3) := rfl
  rw [hG, ← result_ix K Q V M (x 0) (x 1) (x 2) (x 3)]
  exact congrArg (val_main_v21 (F := Ideal) K Q V M) (eq_ix4 x)

end Cert.RefAttention

end
-- ==== Proof.Finite.lean ====
/-
  From "every float input is finite" to "every entry of the first two arrays is a real number".

  Over the extended reals a float is a real number, +∞ or −∞ (−∞ also stands for a pattern that is not a number).
  The precondition computes, for each of its four arrays, whether |x| < +∞ holds at every entry (|x| is max x (−x),
  the bound is the pattern 0x7F800000 of +∞, "at every entry" is a reduction by `and` over all axes starting from 1)
  and joins the four answers by `and`. If the joined answer is 1 then each of the four is 1, so each compared entry
  is 1, so max x (−x) < ⊤ at every entry x of each array. That excludes both x = ⊤ (max ⊤ ⊥ = ⊤) and x = ⊥
  (max ⊥ ⊤ = ⊤): what remains is a real number.
-/
import proofs.«150226_j32684701122973_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- A rank-0 array has exactly one index (there is no axis to give a coordinate on). -/
instance : Subsingleton S_.Idx := ⟨fun a b => funext fun d => d.elim0⟩

/-- The pattern 0x7F800000 (exponent all ones, fraction zero, sign clear) denotes +∞. -/
theorem top_eq : Ideal.ofBits .f32 0x7F800000#32 = (⊤ : EReal) := by
  simp [Ideal.ofBits, Ideal.ieee]

/-- An extended real whose absolute value max x (−x) lies strictly below +∞ is a real number:
    at x = ⊥ the maximum is −⊥ = ⊤, at x = ⊤ it is ⊤ itself, and ⊤ < ⊤ is false. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 exactly when the truth value is true. -/
theorem ofBool_eq_one (b : Bool) : BitVec.ofBool b = 1#1 ↔ b = true := by cases b <;> decide

/-- One compared entry: if "|x| < +∞" evaluates to 1 then x is a real number. The comparison is the linear
    order's strict one on the extended reals, |x| is max x (−x), and the bound is ⊤. -/
theorem real_of_cmp (x : Ideal .f32)
    (h : FloatOps.cmpf (F := Ideal) .olt (FloatOps.hostAbsf x) (FloatOps.ofBits .f32 0x7F800000#32) = 1#1) :
    ∃ r : ℝ, x = (r : EReal) := by
  change BitVec.ofBool (decide (max x (-x) < Ideal.ofBits .f32 0x7F800000#32)) = 1#1 at h
  rw [ofBool_eq_one, decide_eq_true_eq, top_eq] at h
  exact real_of_abs_lt_top x h

/-- If the finiteness precondition evaluates to 1 then every entry of the first and of the second array is a real
    number. The result is the `and` of four all-reductions; it is 1 only if each is, an all-reduction by `and` is 1
    only if every reduced entry is, and the entry at index x of the i-th reduction is "|aᵢ x| < +∞" (the broadcast
    of the scalar bound reads the same bound at every index). -/
theorem real_entries (a0 a1 a2 : FVec Ideal S2x16x2048x64 .f32) (a3 : FVec Ideal S2x1x1x2048 .f32)
    (h : fn (F := Ideal) a0 a1 a2 a3 = fun _ => 1#1) :
    (∀ x, ∃ r : ℝ, a0 x = (r : EReal)) ∧ (∀ x, ∃ r : ℝ, a1 x = (r : EReal)) := by
  have e := congrFun h ValueIdx.ix0
  dsimp only [fn, fn_part1] at e
  simp only [andi, IntOp.andi_eq_one] at e
  obtain ⟨⟨⟨h0, h1⟩, -⟩, -⟩ := e
  exact ⟨fun x => real_of_cmp (a0 x) (Host.reduce_andi_all _ _ _ _ _ h0 x),
    fun x => real_of_cmp (a1 x) (Host.reduce_andi_all _ _ _ _ _ h1 x)⟩

end Cert.Finite

end
-- ==== Proof.lean ====
/-
  The certificate of a scaled dot-product attention kernel against its jnp reference, on the extended reals.

  Both programs take keys K, queries Q, values V (each [2, 16, 2048, 64]) and a padding mask M ([2, 1, 1, 2048]) and
  return, for every batch b, head h and query row i, the softmax over the key positions j of the scores
      s(i, j) = (sum over the 64 coordinates d of Q[b,h,i,d] * K[b,h,j,d]) / 8 + (1 - M[b,0,0,j]) * lowest
  (shifted by the row's maximum before the exponential), weighted against the rows of V[b,h,:,:]; lowest is the most
  negative finite single-precision number, the same word in both programs.

  The kernel multiplies every query entry by 1/8 on the host, then works on blocks of 512 query rows: one grid point
  per (b, h, row block), each forming its 512 x 2048 scores, the row softmax, and the product with the values. The
  reference divides the inner products by sqrt 64 instead and adds a (vacuous) maximum with minus infinity to the
  row maximum. On the extended reals a change of float format is the identity and sums are exact in any order, so
  the only difference left is where the factor 1/8 sits; moving it across the sum over d is distributivity, which holds
  because the precondition makes every entry of Q and K a real number. sqrt 64 = 8 exactly.

  The pieces: Attention.lean (the function and the law that moves the scale), KernelPayload.lean (one block of the
  kernel's body is that function), KernelArray.lean (the 128 blocks tile the result array), RefAttention.lean (the
  reference's stages are that function), Finite.lean (the precondition makes the entries real). The three frames are
  the generated ones; the idealization rewrote nothing, so it is preserved trivially.
-/
import proofs.«150226_j32684701122973_2_alg».proof.Defs
import proofs.«150226_j32684701122973_2_alg».proof.Proof.Gen.Kernel
import proofs.«150226_j32684701122973_2_alg».proof.Proof.Gen.Kernel.Skeleton
import proofs.«150226_j32684701122973_2_alg».proof.Proof.Gen.Kernel.Launch
import proofs.«150226_j32684701122973_2_alg».proof.Proof.Gen.Kernel.Points
import proofs.«150226_j32684701122973_2_alg».proof.Proof.Gen.Kernel.Frame
import proofs.«150226_j32684701122973_2_alg».proof.Proof.Gen.KernelIdeal
import proofs.«150226_j32684701122973_2_alg».proof.Proof.Gen.KernelIdeal.Skeleton
import proofs.«150226_j32684701122973_2_alg».proof.Proof.Gen.KernelIdeal.Launch
import proofs.«150226_j32684701122973_2_alg».proof.Proof.Gen.KernelIdeal.Points
import proofs.«150226_j32684701122973_2_alg».proof.Proof.Gen.KernelIdeal.Frame
import proofs.«150226_j32684701122973_2_alg».proof.Proof.Gen.ReferenceIdeal
import proofs.«150226_j32684701122973_2_alg».proof.Proof.Gen.Pre_finite_inputs
import proofs.«150226_j32684701122973_2_alg».proof.Proof.Gen.KernelIdeal.Value
import proofs.«150226_j32684701122973_2_alg».proof.Proof.Gen.ReferenceIdeal.Run
import proofs.«150226_j32684701122973_2_alg».proof.Proof.Gen.ReferenceIdeal.Read
import proofs.«150226_j32684701122973_2_alg».proof.Proof.Attention
import proofs.«150226_j32684701122973_2_alg».proof.Proof.KernelArray
import proofs.«150226_j32684701122973_2_alg».proof.Proof.RefAttention
import proofs.«150226_j32684701122973_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at attention with the scale on the queries, the
    reference's at attention with the inner product divided by sqrt 64; with real entries in Q and K these are one
    function, and the precondition makes the entries real. -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefAttention.ref_eq,
    (hagree c).1, (hagree c).2.1, (hagree c).2.2.1, (hagree c).2.2.2]
  obtain ⟨hK, hQ⟩ := Cert.Finite.real_entries _ _ _ _ (hpre c)
  exact Cert.Attention.Gd_eq_G _ _ _ _ hK hQ

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
